-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x512 : Shape := ⟨3, ![16, 256, 512]⟩
abbrev S16x256 : Shape := ⟨2, ![16, 256]⟩
abbrev S10000x512 : Shape := ⟨2, ![10000, 512]⟩
abbrev S_ : Shape := ⟨0, ![]⟩

class Facts : Prop where
  bcast_S_S16x256x512 : S_.BroadcastsInDim S16x256x512 (![] : Fin 0 → Fin S16x256x512.rank)
  reducesTo_S16x256x512_S_d0_1_2 : S16x256x512.ReducesTo [0, 1, 2] S_
  h_S_ : 0 < S_.numel
  bcast_S_S10000x512 : S_.BroadcastsInDim S10000x512 (![] : Fin 0 → Fin S10000x512.rank)
  reducesTo_S10000x512_S_d0_1 : S10000x512.ReducesTo [0, 1] S_

variable [Facts]

def fn {F : FTy → Type} [FloatOps F] (main_arg0 : FVec F S16x256x512 .f32) (main_arg1 : IVec S16x256 32) (main_arg2 : FVec F S10000x512 .f32) : IVec S_ 1 :=
  let main_v0 : FVec F S16x256x512 .f32 := Host.absf main_arg0
  let main_cst : FVec F S_ .f32 := constant S_ .f32 0x7F800000#32
  let main_v1 : FVec F S16x256x512 .f32 := broadcastInDim S16x256x512 ![] bcast_S_S16x256x512 main_cst
  let main_v2 : IVec S16x256x512 1 := cmpf .olt main_v0 main_v1
  let main_c : IVec S_ 1 := constantI S_ 1 1#1
  let main_v3 : IVec S_ 1 := (fun x v => Host.reduce IntOp.andi x v reducesTo_S16x256x512_S_d0_1_2 h_S_) main_v2 main_c
  let main_v4 : FVec F S10000x512 .f32 := Host.absf main_arg2
  let main_cst_0 : FVec F S_ .f32 := constant S_ .f32 0x7F800000#32
  let main_v5 : FVec F S10000x512 .f32 := broadcastInDim S10000x512 ![] bcast_S_S10000x512 main_cst_0
  let main_v6 : IVec S10000x512 1 := cmpf .olt main_v4 main_v5
  let main_c_1 : IVec S_ 1 := constantI S_ 1 1#1
  let main_v7 : IVec S_ 1 := (fun x v => Host.reduce IntOp.andi x v reducesTo_S10000x512_S_d0_1 h_S_) main_v6 main_c_1
  let main_v8 : IVec S_ 1 := andi main_v3 main_v7
  main_v8
-- ==== Kernel.lean ====
abbrev S16x256x512 : Shape := ⟨3, ![16, 256, 512]⟩
abbrev S16x256 : Shape := ⟨2, ![16, 256]⟩
abbrev S10000x512 : Shape := ⟨2, ![10000, 512]⟩
abbrev S4096x512 : Shape := ⟨2, ![4096, 512]⟩
abbrev S4096 : Shape := ⟨1, ![4096]⟩
abbrev S4096x1 : Shape := ⟨2, ![4096, 1]⟩
abbrev S512x512 : Shape := ⟨2, ![512, 512]⟩
abbrev S1000x512 : Shape := ⟨2, ![1000, 512]⟩
abbrev S512x1 : Shape := ⟨2, ![512, 1]⟩
abbrev S512 : Shape := ⟨1, ![512]⟩
abbrev S1000 : Shape := ⟨1, ![1000]⟩
abbrev S1000x1 : Shape := ⟨2, ![1000, 1]⟩
abbrev S1x1000 : Shape := ⟨2, ![1, 1000]⟩
abbrev S512x1000 : Shape := ⟨2, ![512, 1000]⟩
abbrev S_ : Shape := ⟨0, ![]⟩

abbrev nBuf : Space → Nat
  | .hbm => 11
  | .vmem => 9
  | .smem => 0
  | _ => 0

abbrev bufTy : (tb : Table) → Fin (tcTables nBuf tb) → BufTy
  | .hbm, ⟨0, _⟩ => ⟨S16x256x512, .f32⟩
  | .hbm, ⟨1, _⟩ => ⟨S16x256, .i32⟩
  | .hbm, ⟨2, _⟩ => ⟨S10000x512, .f32⟩
  | .hbm, ⟨3, _⟩ => ⟨S4096x512, .f32⟩
  | .hbm, ⟨4, _⟩ => ⟨S4096, .i32⟩
  | .hbm, ⟨5, _⟩ => ⟨S4096x1, .i32⟩
  | .hbm, ⟨6, _⟩ => ⟨S4096x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S1000x512, .f32⟩
  | .local _ .vmem, ⟨3, _⟩ => ⟨S1000x512, .f32⟩
  | .local _ .vmem, ⟨4, _⟩ => ⟨S512x1, .i32⟩
  | .local _ .vmem, ⟨5, _⟩ => ⟨S512x1, .i32⟩
  | .local _ .vmem, ⟨6, _⟩ => ⟨S512x1, .f32⟩
  | .local _ .vmem, ⟨7, _⟩ => ⟨S512x1, .f32⟩
  | .local _ .vmem, ⟨8, _⟩ => ⟨S512x1, .f32⟩
  | _, _ => ⟨S16x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16x256x512_S4096x512 : S16x256x512.ShapeCasts S4096x512
  shapeCasts_S16x256_S4096 : S16x256.ShapeCasts S4096
  shapeCasts_S4096_S4096x1 : S4096.ShapeCasts S4096x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1000x512_S1000x512_0_0 : ∀ a, (![0, 0] : Fin 2 → Nat) a + S1000x512.size a ≤ S1000x512.size a
  h_S1000x512 : 0 < S1000x512.numel
  reduces_S512x512_S512 : S512x512.Reduces [1] S512
  shapeCasts_S512_S512x1 : S512.ShapeCasts S512x1
  reduces_S1000x512_S1000 : S1000x512.Reduces [1] S1000
  shapeCasts_S1000_S1000x1 : S1000.ShapeCasts S1000x1
  transposes_S1000x1_p1_0_S1x1000 : S1000x1.Transposes [1, 0] S1x1000
  bitsLt_bf16_f32 : FTy.bits .bf16 < FTy.bits .f32
  transposes_S1000x512_p1_0_S512x1000 : S1000x512.Transposes [1, 0] S512x1000
  broadcasts_S512x1_S512x1000 : S512x1.Broadcasts S512x1000
  broadcasts_S1x1000_S512x1000 : S1x1000.Broadcasts S512x1000
  iota_S512x1000_d1_w32 : S512x1000.Iotas .tc 32 [1]
  reduces_S512x1000_S512 : S512x1000.Reduces [1] S512
  reducesTo_S4096x1_S_d0_1 : S4096x1.ReducesTo [0, 1] S_
  h_S_ : 0 < S_.numel
  dot_S512x512_S512x1000_S512x1000_1_0_0_1_n_n_wf : DotDims.WF S512x512 S512x1000 S512x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S10000x512.size a
  hwx0_1 : ∀ i : grid0.Coords, EltTy.bits .f32 = 32 ∨ (Rect.block (s := S10000x512) S1000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)

variable [Facts₀]

def dot_S512x512_S512x1000_S512x1000_1_0_0_1_n_n : DotDims S512x512 S512x1000 S512x1000 where
  lhsContracting := [1]
  rhsContracting := [0]
  lhsNonContracting := [0]
  rhsNonContracting := [1]
  lhsBatch := []
  rhsBatch := []
  wf := dot_S512x512_S512x1000_S512x1000_1_0_0_1_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x256x512 : Shape := ⟨3, ![16, 256, 512]⟩
abbrev S16x256 : Shape := ⟨2, ![16, 256]⟩
abbrev S10000x512 : Shape := ⟨2, ![10000, 512]⟩
abbrev S4096x512 : Shape := ⟨2, ![4096, 512]⟩
abbrev S4096 : Shape := ⟨1, ![4096]⟩
abbrev S_ : Shape := ⟨0, ![]⟩
abbrev S4096x1 : Shape := ⟨2, ![4096, 1]⟩
abbrev S10000 : Shape := ⟨1, ![10000]⟩
abbrev S1x10000 : Shape := ⟨2, ![1, 10000]⟩
abbrev S4096x10000 : Shape := ⟨2, ![4096, 10000]⟩
abbrev S512x10000 : Shape := ⟨2, ![512, 10000]⟩

abbrev nBuf : Space → Nat
  | .hbm => 45
  | .vmem => 0
  | .smem => 0
  | _ => 0

abbrev bufTy : (tb : Table) → Fin (tcTables nBuf tb) → BufTy
  | .hbm, ⟨0, _⟩ => ⟨S16x256x512, .f32⟩
  | .hbm, ⟨1, _⟩ => ⟨S16x256, .i32⟩
  | .hbm, ⟨2, _⟩ => ⟨S10000x512, .f32⟩
  | .hbm, ⟨3, _⟩ => ⟨S4096x512, .f32⟩
  | .hbm, ⟨4, _⟩ => ⟨S4096, .i32⟩
  | .hbm, ⟨5, _⟩ => ⟨S4096x512, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S10000x512, .f32⟩
  | .hbm, ⟨10, _⟩ => ⟨S_, .f32⟩
  | .hbm, ⟨11, _⟩ => ⟨S10000, .f32⟩
  | .hbm, ⟨12, _⟩ => ⟨S1x10000, .f32⟩
  | .hbm, ⟨13, _⟩ => ⟨S4096x10000, .f32⟩
  | .hbm, ⟨14, _⟩ => ⟨S4096x10000, .f32⟩
  | .hbm, ⟨15, _⟩ => ⟨S4096x10000, .f32⟩
  | .hbm, ⟨16, _⟩ => ⟨S512x10000, .f32⟩
  | .hbm, ⟨17, _⟩ => ⟨S4096x10000, .f32⟩
  | .hbm, ⟨18, _⟩ => ⟨S_, .f32⟩
  | .hbm, ⟨19, _⟩ => ⟨S4096x10000, .f32⟩
  | .hbm, ⟨20, _⟩ => ⟨S4096x10000, .f32⟩
  | .hbm, ⟨21, _⟩ => ⟨S4096x10000, .f32⟩
  | .hbm, ⟨22, _⟩ => ⟨S4096x1, .i32⟩
  | .hbm, ⟨23, _⟩ => ⟨S10000, .i32⟩
  | .hbm, ⟨24, _⟩ => ⟨S1x10000, .i32⟩
  | .hbm, ⟨25, _⟩ => ⟨S4096x10000, .i32⟩
  | .hbm, ⟨26, _⟩ => ⟨S4096x10000, .i32⟩
  | .hbm, ⟨27, _⟩ => ⟨S4096x10000, .i1⟩
  | .hbm, ⟨28, _⟩ => ⟨S4096x10000, .f32⟩
  | .hbm, ⟨29, _⟩ => ⟨S4096x10000, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S4096x10000, .f32⟩
  | .hbm, ⟨34, _⟩ => ⟨S4096x10000, .f32⟩
  | .hbm, ⟨35, _⟩ => ⟨S_, .f32⟩
  | .hbm, ⟨36, _⟩ => ⟨S4096x10000, .f32⟩
  | .hbm, ⟨37, _⟩ => ⟨S4096x10000, .f32⟩
  | .hbm, ⟨38, _⟩ => ⟨S_, .f32⟩
  | .hbm, ⟨39, _⟩ => ⟨S4096, .f32⟩
  | .hbm, ⟨40, _⟩ => ⟨S16x256, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S16x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩

abbrev nD : Nat := 1
abbrev τ : Topo := Topo.v7x

variable {F : FTy → Type} [FloatOps F]

class Facts₀ : Prop where
  shapeCasts_S16x256x512_S4096x512 : S16x256x512.ShapeCasts S4096x512
  shapeCasts_S16x256_S4096 : S16x256.ShapeCasts S4096
  reducesTo_S4096x512_S4096_d1 : S4096x512.ReducesTo [1] S4096
  h_S_ : 0 < S_.numel
  bcast_S4096_S4096x1_0 : S4096.BroadcastsInDim S4096x1 (![0] : Fin 1 → Fin S4096x1.rank)
  reducesTo_S10000x512_S10000_d1 : S10000x512.ReducesTo [1] S10000
  bcast_S10000_S1x10000_1 : S10000.BroadcastsInDim S1x10000 (![1] : Fin 1 → Fin S1x10000.rank)
  bcast_S4096x1_S4096x10000_0_1 : S4096x1.BroadcastsInDim S4096x10000 (![0, 1] : Fin 2 → Fin S4096x10000.rank)
  bcast_S1x10000_S4096x10000_0_1 : S1x10000.BroadcastsInDim S4096x10000 (![0, 1] : Fin 2 → Fin S4096x10000.rank)
  transposes_S10000x512_S512x10000_1_0 : S10000x512.Transposes [1, 0] S512x10000
  bcast_S_S4096x10000 : S_.BroadcastsInDim S4096x10000 (![] : Fin 0 → Fin S4096x10000.rank)
  reducesTo_S4096x10000_S4096_d1 : S4096x10000.ReducesTo [1] S4096
  shapeCasts_S4096_S16x256 : S4096.ShapeCasts S16x256
  reducesTo_S16x256_S_d0_1 : S16x256.ReducesTo [0, 1] S_
  dot_S4096x512_S512x10000_S4096x10000_1_0_0_1_n_n_wf : DotDims.WF S4096x512 S512x10000 S4096x10000 [1] [0] [0] [1] [] []

variable [Facts₀]

def dot_S4096x512_S512x10000_S4096x10000_1_0_0_1_n_n : DotDims S4096x512 S512x10000 S4096x10000 where
  lhsContracting := [1]
  rhsContracting := [0]
  lhsNonContracting := [0]
  rhsNonContracting := [1]
  lhsBatch := []
  rhsBatch := []
  wf := dot_S4096x512_S512x10000_S4096x10000_1_0_0_1_n_n_wf

class Facts : Prop extends Facts₀ where

variable [Facts]
-- ==== Proof.CaseValues.lean ====
/-
  What one grid point leaves behind, in each of its two control cases.

  At a point the body computes the tile's partial row sums P (one value per row of the sample tile: the clamped,
  masked distances of that row summed over the tile's 1000 classes).  At the first class tile of a row tile (case A)
  the scratch accumulator is first set to the zero block Z and then to Z + P; at every later class tile (case B) the
  accumulator, holding what the point before left in it (S), is set to S + P.  In both cases the output block is then
  a copy of the accumulator.  So each case leaves the SAME block in the output and in the scratch:
      case A:  add Z P        case B:  add S P
  where `add` is the body's own last payload (an `addf` of the accumulator read back and the partial sums).
-/
import proofs.«139067_j19481971655234_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

/-- Zero offsets, however they are spelt. -/
theorem hz : (![0, 0] : Fin 2 → Nat) = fun _ => 0 := funext fun a => by fin_cases a <;> rfl

/-- A load of a whole buffer after a list of stores whose LAST one stored the whole buffer reads that store's
    payload, whatever was stored before. -/
theorem readCov_last_whole {Val : EltTy → Type} [∀ e, Nonempty (Val e)] {S : Shape} {e : EltTy} {sig : RefSig} {κ : Kind}
    {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons.mpr (Or.inl rfl), by
    show y ∈ (Rect.whole S).set; rw [Rect.set_whole]; exact Finset.mem_univ y⟩), View.canon_cons_unit_zero rfl,
    View.ld_unit_zero rfl]

/-- CASE B, the output block: the accumulator's new contents `S + P`, copied. -/
theorem out_B (c : Dev nD) (i : grid0.Coords) (a2 : Memref sig .tc .vmem S512x512 .f32) (h2 : a2.IsWhole)
    (a3 : Memref sig .tc .vmem S1000x512 .f32) (h3 : a3.IsWhole) (a4 : Memref sig .tc .vmem S512x1 .i32) (h4 : a4.IsWhole)
    (a5 : Memref sig .tc .vmem S512x1 .f32) (h5 : a5.IsWhole) (a6 : Memref sig .tc .vmem S512x1 .f32) (h6 : a6.IsWhole)
    (hc : ¬cond0_0 i) (x0 : Vec F S512x512 .f32) (x1 : Vec F S1000x512 .f32) (x2 : Vec F S512x1 .i32) (xs0 : Vec F S512x1 .f32) :
    out0_B_3 c i a2 h2 a3 h3 a4 h4 a5 h5 a6 h6 hc x0 x1 x2 xs0 = k0_pay1 (k0_pay3 i x0 x1 x2) xs0 := by
  unfold out0_B_3
  rw [View.read_writes_eq_canon _ _ _ (cover0_B_3 c i a2 h2 a3 h3 a4 h4 a5 h5 a6 h6 hc x0 x1 x2 xs0)]
  unfold kernelRun0_B
  dsimp only
  sl_unfold_words
  rw [View.canon_unit_zero hz, View.readCov_unit_zero (S := S512x1) _ hz]
  simp only [View.readAt_eq_ld, h2.read_unread, h3.read_unread, h4.read_unread, h6.read_unread,
    View.ld_unit_zero (S := S512x512) hz, View.ld_unit_zero (S := S1000x512) hz, View.ld_unit_zero (S := S512x1) hz]

/-- CASE B, the scratch: `S + P`. -/
theorem sout_B (c : Dev nD) (i : grid0.Coords) (a2 : Memref sig .tc .vmem S512x512 .f32) (h2 : a2.IsWhole)
    (a3 : Memref sig .tc .vmem S1000x512 .f32) (h3 : a3.IsWhole) (a4 : Memref sig .tc .vmem S512x1 .i32) (h4 : a4.IsWhole)
    (a5 : Memref sig .tc .vmem S512x1 .f32) (h5 : a5.IsWhole) (a6 : Memref sig .tc .vmem S512x1 .f32) (h6 : a6.IsWhole)
    (hc : ¬cond0_0 i) (x0 : Vec F S512x512 .f32) (x1 : Vec F S1000x512 .f32) (x2 : Vec F S512x1 .i32) (xs0 : Vec F S512x1 .f32) :
    sout0_B_0 c i a2 h2 a3 h3 a4 h4 a5 h5 a6 h6 hc x0 x1 x2 xs0 = k0_pay1 (k0_pay3 i x0 x1 x2) xs0 := by
  unfold sout0_B_0
  rw [View.read_writes_eq_canon _ _ _ (scover0_B_0 c i a2 h2 a3 h3 a4 h4 a5 h5 a6 h6 hc x0 x1 x2 xs0)]
  unfold kernelRun0_B
  dsimp only
  sl_unfold_words
  rw [View.canon_unit_zero hz]
  simp only [View.readAt_eq_ld, h2.read_unread, h3.read_unread, h4.read_unread, h6.read_unread,
    View.ld_unit_zero (S := S512x512) hz, View.ld_unit_zero (S := S1000x512) hz, View.ld_unit_zero (S := S512x1) hz]

/-- CASE A, the output block: the accumulator zeroed, then `Z + P`, copied. -/
theorem out_A (c : Dev nD) (i : grid0.Coords) (a2 : Memref sig .tc .vmem S512x512 .f32) (h2 : a2.IsWhole)
    (a3 : Memref sig .tc .vmem S1000x512 .f32) (h3 : a3.IsWhole) (a4 : Memref sig .tc .vmem S512x1 .i32) (h4 : a4.IsWhole)
    (a5 : Memref sig .tc .vmem S512x1 .f32) (h5 : a5.IsWhole) (a6 : Memref sig .tc .vmem S512x1 .f32) (h6 : a6.IsWhole)
    (hc : cond0_0 i) (x0 : Vec F S512x512 .f32) (x1 : Vec F S1000x512 .f32) (x2 : Vec F S512x1 .i32) :
    out0_A_3 c i a2 h2 a3 h3 a4 h4 a5 h5 a6 h6 hc x0 x1 x2 = k0_pay1 (k0_pay3 i x0 x1 x2) (k0_pay2 (F := F)) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz, readCov_last_whole (S := S512x1) _ hz, View.readCov_unit_zero (S := S512x1) _ hz]
  simp only [View.readAt_eq_ld, h2.read_unread, h3.read_unread, h4.read_unread,
    View.ld_unit_zero (S := S512x512) hz, View.ld_unit_zero (S := S1000x512) hz, View.ld_unit_zero (S := S512x1) hz]

/-- CASE A, the scratch: `Z + P`. -/
theorem sout_A (c : Dev nD) (i : grid0.Coords) (a2 : Memref sig .tc .vmem S512x512 .f32) (h2 : a2.IsWhole)
    (a3 : Memref sig .tc .vmem S1000x512 .f32) (h3 : a3.IsWhole) (a4 : Memref sig .tc .vmem S512x1 .i32) (h4 : a4.IsWhole)
    (a5 : Memref sig .tc .vmem S512x1 .f32) (h5 : a5.IsWhole) (a6 : Memref sig .tc .vmem S512x1 .f32) (h6 : a6.IsWhole)
    (hc : cond0_0 i) (x0 : Vec F S512x512 .f32) (x1 : Vec F S1000x512 .f32) (x2 : Vec F S512x1 .i32) :
    sout0_A_0 c i a2 h2 a3 h3 a4 h4 a5 h5 a6 h6 hc x0 x1 x2 = k0_pay1 (k0_pay3 i x0 x1 x2) (k0_pay2 (F := F)) := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_cons_unit_zero (S := S512x1) hz, View.readCov_unit_zero (S := S512x1) _ hz]
  simp only [View.readAt_eq_ld, h2.read_unread, h3.read_unread, h4.read_unread,
    View.ld_unit_zero (S := S512x512) hz, View.ld_unit_zero (S := S1000x512) hz, View.ld_unit_zero (S := S512x1) hz]

end Cert.KernelIdeal.Acc

end
-- ==== Proof.AccChain.lean ====
/-
  The accumulator, point by point.

  The 80 grid points run row tile by row tile (8 of them), and inside a row tile class tile by class tile (10 of them):
  point n is class tile n % 10 of row tile n / 10.  Writing P n for the partial row sums the body computes at point n,
  Z for the zero block and `add` for the body's accumulating payload, the accumulator after point n is
      A 0 = add Z (P 0),      A (n+1) = add Z (P (n+1))  at the first class tile of a row tile ((n+1) % 10 = 0),
                              A (n+1) = add (A n) (P (n+1))  otherwise,
  and both the output block and the carried scratch hold A n after point n: by induction on the point, each step one
  of the two case values.
-/
import proofs.«139067_j19481971655234_1_alg».proof.Proof.CaseValues

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ)

/-- The partial row sums the body computes at point `t`, from the three input blocks of that point. -/
def part (c : Dev nD) (t : Fin cfg0.N) : Vec F S512x1 .f32 :=
  k0_pay3 (grid0.coords t) (iblk m c 0 t) (iblk m c 1 t) (iblk m c 2 t)

/-- The accumulator after point `n`. -/
def acc (c : Dev nD) : (n : ℕ) → n < cfg0.N → Vec F S512x1 .f32
  | 0, h => k0_pay1 (part m c ⟨0, h⟩) (k0_pay2 (F := F))
  | n + 1, h =>
    if (n + 1) % 10 = 0 then k0_pay1 (part m c ⟨n + 1, h⟩) (k0_pay2 (F := F))
    else k0_pay1 (part m c ⟨n + 1, h⟩) (acc c n (Nat.lt_of_succ_lt h))

theorem acc_zero (c : Dev nD) (h : 0 < cfg0.N) :
    acc m c 0 h = k0_pay1 (part m c ⟨0, h⟩) (k0_pay2 (F := F)) := rfl

theorem acc_succ (c : Dev nD) (n : ℕ) (h : n + 1 < cfg0.N) :
    acc m c (n + 1) h = if (n + 1) % 10 = 0 then k0_pay1 (part m c ⟨n + 1, h⟩) (k0_pay2 (F := F))
      else k0_pay1 (part m c ⟨n + 1, h⟩) (acc m c n (Nat.lt_of_succ_lt h)) := rfl

/-- After point `n` the output block and the carried scratch both hold the accumulator. -/
theorem outsAt_eq (c : Dev nD) : ∀ (n : ℕ) (h : n < cfg0.N), outsAt0 m c n h = (acc m c n h, acc m c n h)
  | 0, h => by
    rw [outsAt0_A m c ⟨0, h⟩ rfl, out_A, sout_A]
    rfl
  | n + 1, h => by
    by_cases h0 : (n + 1) % 10 = 0
    · rw [outsAt0_A m c ⟨n + 1, h⟩ h0, out_A, sout_A, acc_succ m c n h, if_pos h0]
      rfl
    · rw [outsAt0_B m c ⟨n + 1, h⟩ h0, out_B, sout_B]
      show (k0_pay1 _ (outsAt0 m c n _).2, k0_pay1 _ (outsAt0 m c n _).2) = _
      rw [outsAt_eq c n, acc_succ m c n h, if_neg h0]
      rfl

end Cert.KernelIdeal.Acc

end
-- ==== Proof.Spec.lean ====
/-
  The center loss as one function of the sample matrix, the class-centre matrix and the labels, on the extended reals.

  For a sample n (a row X n of D features) and a class c (a row C c), the squared distance is
      ‖X n‖² + ‖C c‖² − 2 ⟨X n, C c⟩,
  kept where c is the sample's label and replaced by 0 elsewhere, then clamped into [lo, hi]; a sample's loss is the
  sum of these clamped entries over all classes, and the loss is the sum over the samples, times the weight 1.

  The two programs mask differently: one multiplies the distance by the 0/1 value of the comparison, the other
  selects between the distance and 0.  On the extended reals d * 1 = d and d * 0 = 0 for every d (the infinities
  included), so both are the same conditional.
-/
import Idealize.ShloMosaic.PureOps.Ideal.Laws
import Idealize.ShloMosaic.Lib.ValueIdx

noncomputable section

open scoped BigOperators

namespace Cert.CenterLoss

open Idealize.ShloMosaic

/-- The factor 2 of the cross term, the two clamp bounds, and the loss weight 1, as the float words both programs carry. -/
abbrev two : EReal := Ideal.ofBits .f32 0x40000000#32
abbrev lo : EReal := Ideal.ofBits .f32 0x2B8CBCCC#32
abbrev hi : EReal := Ideal.ofBits .f32 0x5368D4A5#32
abbrev one : EReal := Ideal.ofBits .f32 0x3F800000#32

variable {N K D : ℕ}

/-- ‖X n‖² + ‖C c‖² − 2 ⟨X n, C c⟩. -/
def sqdist (X : Fin N → Fin D → EReal) (C : Fin K → Fin D → EReal) (n : Fin N) (c : Fin K) : EReal :=
  ((∑ d : Fin D, X n d * X n d) + ∑ d : Fin D, C c d * C c d) - two * ∑ d : Fin D, X n d * C c d

/-- The clamped, masked entry (n, c): the distance where c is n's label, 0 elsewhere, clamped into [lo, hi]. -/
def entry (X : Fin N → Fin D → EReal) (C : Fin K → Fin D → EReal) (L : Fin N → BitVec 32) (n : Fin N) (c : Fin K) : EReal :=
  min hi (max lo (if L n = BitVec.ofNat 32 c.val then sqdist X C n c else 0))

/-- A sample's loss: its clamped entries summed over the classes. -/
def rowLoss (X : Fin N → Fin D → EReal) (C : Fin K → Fin D → EReal) (L : Fin N → BitVec 32) (n : Fin N) : EReal :=
  ∑ c : Fin K, entry X C L n c

/-- The loss: the samples' losses summed, times the weight. -/
def loss (X : Fin N → Fin D → EReal) (C : Fin K → Fin D → EReal) (L : Fin N → BitVec 32) : EReal :=
  one * ∑ n : Fin N, rowLoss X C L n

/-! ## The programs' inputs as the loss's arguments

Both programs first merge the two leading axes of the samples [16, 256, 512] into one axis of 4096 samples, and of the
labels [16, 256] likewise; the centres [10000, 512] are used as they are. -/

/-- The samples as a matrix: the input with its two leading axes merged, row `n`, feature `d`. -/
def samples (x : (⟨3, ![16, 256, 512]⟩ : Shape).Idx → EReal)
    (h : (⟨3, ![16, 256, 512]⟩ : Shape).ShapeCasts ⟨2, ![4096, 512]⟩) : Fin 4096 → Fin 512 → EReal :=
  fun n d => shapeCast ⟨2, ![4096, 512]⟩ x h (ValueIdx.ix2 n d)

/-- The class centres as a matrix: class `c`, feature `d`. -/
def centres (y : (⟨2, ![10000, 512]⟩ : Shape).Idx → EReal) : Fin 10000 → Fin 512 → EReal :=
  fun c d => y (ValueIdx.ix2 c d)

/-- The labels as one vector: the input with its two axes merged, sample `n`. -/
def labelsOf (l : (⟨2, ![16, 256]⟩ : Shape).Idx → BitVec 32)
    (h : (⟨2, ![16, 256]⟩ : Shape).ShapeCasts ⟨1, ![4096]⟩) : Fin 4096 → BitVec 32 :=
  fun n => shapeCast ⟨1, ![4096]⟩ l h (ValueIdx.ix1 n)

/-- Masking by the product with the comparison's 0/1 value is the conditional. -/
theorem mul_mask (d : EReal) (l r : BitVec 32) :
    d * (((IntOp.cmpi .eq l r).toNat : ℝ) : EReal) = if l = r then d else 0 := by
  by_cases h : l = r
  · subst h
    rw [if_pos rfl]
    have : IntOp.cmpi .eq l l = 1#1 := by simp [IntOp.cmpi]
    rw [this]
    simp
  · rw [if_neg h]
    have hb : (l == r) = false := beq_false_of_ne h
    have : IntOp.cmpi .eq l r = 0#1 := by simp [IntOp.cmpi, hb]
    rw [this]
    simp

/-- Masking by selection between the distance and a zero is the same conditional. -/
theorem select_mask (d z : EReal) (l r : BitVec 32) :
    Scalar.select (IntOp.cmpi .eq l r) d z = if l = r then d else z := by
  by_cases h : l = r
  · subst h
    have : IntOp.cmpi .eq l l = 1#1 := by simp [IntOp.cmpi]
    rw [this, if_pos rfl]
    exact ValueIdx.select_one _ _
  · have hb : (l == r) = false := beq_false_of_ne h
    have : IntOp.cmpi .eq l r = 0#1 := by simp [IntOp.cmpi, hb]
    rw [this, if_neg h]
    exact ValueIdx.select_zero _ _

end Cert.CenterLoss

end
-- ==== Proof.LibRowOps.lean ====
/-
  Three readings at an entry (p, q) of a two-axis array, for the shapes a row-wise reduction meets.

  A vector of one value per row, kept as a column [a, 1] and repeated along the columns, reads at (p, q) its value
  for row p.  A vector of one value per column, kept as a row [1, b] and repeated along the rows, reads at (p, q) its
  value for column q.  And the sum over the second axis of an [a, n] array, read on the extended reals, is at row p
  the sum over d of the entries (p, d).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RowOps

open Idealize.ShloMosaic Idealize.ShloMosaic.ValueIdx

variable {α : Type}

/-- One value per row, kept as a column and repeated along `b` columns: at (p, q) it is the value of row `p`. -/
theorem column_repeated_apply {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else q.val
      rw [if_pos rfl]
  · exact shapeCast_apply v hc _ _ (by
      rw [Shape.rowMajor_val_one, Shape.rowMajor_val_two]
      show p.val = p.val * 1 + 0
      omega)

/-- One value per column, kept as a row and repeated along `a` rows: at (p, q) it is the value of column `q`. -/
theorem row_repeated_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The sum over the second axis of an [a, n] array of extended reals: at row `p` the sum over `d` of the entries (p, d). -/
theorem sum_over_columns_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin n, src (ix2 p d) :=
  (Ideal.multiReduction_add_single src 0x00000000#32 h hφ hacc (ix1 p)).trans
    (Finset.sum_congr rfl fun d _ => congrArg src (funext fun ax => Fin.ext (by
      match ax with
      | ⟨0, _⟩ => rfl
      | ⟨1, _⟩ => rfl)))

end Cert.RowOps

end
-- ==== Proof.LibKeepdims.lean ====
/-
  Readings at an entry (p, q) for the shapes a mean or a length "per row, kept as a column" goes through, in the
  vector form (a cast [a] → [a, 1], a repeat [a, 1] → [a, b]) and in the host form (a broadcast-in-dimension [a] → [a, 1]
  along axis 0, [a, 1] → [a, b] along both axes), and the host's sum over the second axis of an [a, n] array read on the
  extended reals: the initial value plus the sum over d of the entries (p, d).
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Keepdims

open Idealize.ShloMosaic Idealize.ShloMosaic.ValueIdx

variable {α : Type}

/-- A column [a, 1] repeated along `b` columns reads, at (p, q), the column's entry of row `p`. -/
theorem column_repeat_apply {a b : ℕ} (u : (⟨2, ![a, 1]⟩ : Shape).Idx → α)
    (hb : (⟨2, ![a, 1]⟩ : Shape).Broadcasts ⟨2, ![a, b]⟩) (p : Fin a) (q : Fin b) :
    broadcastTo ⟨2, ![a, b]⟩ u hb (ix2 p q) = u (ix2 p (0 : Fin 1)) := by
  refine broadcastTo_apply _ hb (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- A vector [a] kept as a column [a, 1] reads, at (p, 0), its entry `p`. -/
theorem column_cast_apply {a : ℕ} (v : (⟨1, ![a]⟩ : Shape).Idx → α)
    (hc : (⟨1, ![a]⟩ : Shape).ShapeCasts ⟨2, ![a, 1]⟩) (p : Fin a) :
    shapeCast ⟨2, ![a, 1]⟩ v hc (ix2 p (0 : Fin 1)) = v (ix1 p) :=
  shapeCast_apply v hc _ _ (by
    rw [Shape.rowMajor_val_one, Shape.rowMajor_val_two]
    show p.val = p.val * 1 + 0
    omega)

/-- The host's broadcast of a vector [a] to a column [a, 1] along axis 0 reads, at (p, 0), its entry `p`. -/
theorem host_column_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- The host's broadcast of a column [a, 1] to [a, b] reads, at (p, q), the column's entry of row `p`. -/
theorem host_column_repeat_apply {a b : ℕ} (u : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h u (ix2 p q) = u (ix2 p (0 : Fin 1)) := by
  refine broadcastInDim_apply _ h u (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- The host's sum over the second axis of an [a, n] array of extended reals: at row `p` the initial value plus the sum
    over `d` of the entries (p, d). -/
theorem host_sum_over_columns_apply {a n : ℕ} (x : FVec Ideal ⟨2, ![a, n]⟩ .f32) (init : FVec Ideal ⟨0, ![]⟩ .f32)
    (h : (⟨2, ![a, n]⟩ : Shape).ReducesTo [1] ⟨1, ![a]⟩) (h' : (⟨2, ![a, n]⟩ : Shape).Reduces [1] ⟨1, ![a]⟩)
    (hu : 0 < (⟨0, ![]⟩ : Shape).numel) (p : Fin a) :
    Host.reduceAdd x init h hu (ix1 p) = init ix0 + ∑ d : Fin n, x (ix2 p d) := by
  rw [hostReduceAdd_apply, Ideal.hostReduceAdd_single h h', eq_ix0 (Shape.Idx.first hu)]
  refine congrArg (_ + ·) (Finset.sum_congr rfl fun d _ => ?_)
  exact congrArg x (funext fun ax => Fin.ext (by
    match ax with
    | ⟨0, _⟩ => rfl
    | ⟨1, _⟩ => rfl))

end Cert.Keepdims

end
-- ==== Proof.Payload.lean ====
/-
  The body's partial row sums, read at a row.

  From a tile x of 512 samples, a tile y of 1000 class centres, the samples' labels l and the class tile's number k, the
  body forms for row r and column q of the tile
      (‖x r‖² + ‖y q‖²) − 2 ⟨x r, y q⟩       where l r = k·1000 + q,      0 elsewhere,
  clamps it into [lo, hi] and sums over the 1000 columns.  The squared norms are lane sums of the squares (one kept as
  a column, the other turned into a row), the inner product is the matrix product of x with the transposed y (their
  narrowing to bf16 is the identity on the extended reals, and the product accumulates into zeros), and the mask
  compares the label with the column's class number, the column index plus k·1000 in 32-bit arithmetic.
-/
import proofs.«139067_j19481971655234_1_alg».proof.Proof.Gen.KernelIdeal.Skeleton
import proofs.«139067_j19481971655234_1_alg».proof.Proof.Spec
import proofs.«139067_j19481971655234_1_alg».proof.Proof.LibRowOps
import proofs.«139067_j19481971655234_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.CenterLoss

/-- ‖x r‖², kept as a column and repeated along the tile's columns. -/
theorem sqnorm_rows_apply (x : FVec Ideal S512x512 .f32) (hr : S512x512.Reduces [1] S512) (hφ : FKind.Formats .f32)
    (hacc : (0x00000000#32 : BitVec 32) = 0x00000000#32) (hc : S512.ShapeCasts S512x1)
    (hb : S512x1.Broadcasts S512x1000) (r : Fin 512) (q : Fin 1000) :
    broadcastTo S512x1000 (shapeCast S512x1 (multiReduction .add [1] S512 (mulf x x) 0x00000000#32 hr hφ hacc) hc) hb (ix2 r q)
      = ∑ d : Fin 512, x (ix2 r d) * x (ix2 r d) := by
  rw [Cert.RowOps.column_repeated_apply, Cert.RowOps.sum_over_columns_apply]
  rfl

/-- ‖y q‖², kept as a column, turned into a row and repeated along the tile's rows. -/
theorem sqnorm_cols_apply (y : FVec Ideal S1000x512 .f32) (hr : S1000x512.Reduces [1] S1000) (hφ : FKind.Formats .f32)
    (hacc : (0x00000000#32 : BitVec 32) = 0x00000000#32) (hc : S1000.ShapeCasts S1000x1)
    (ht : S1000x1.Transposes [1, 0] S1x1000) (hb : S1x1000.Broadcasts S512x1000) (r : Fin 512) (q : Fin 1000) :
    broadcastTo S512x1000 (transpose S1x1000 [1, 0]
        (shapeCast S1000x1 (multiReduction .add [1] S1000 (mulf y y) 0x00000000#32 hr hφ hacc) hc) ht) hb (ix2 r q)
      = ∑ d : Fin 512, y (ix2 q d) * y (ix2 q d) := by
  rw [broadcastTo_1b_ab_apply,
    transpose_apply [1, 0] _ ht (ix2 (0 : Fin 1) q) (ix2 q (0 : Fin 1)) (fun b => match b with
      | ⟨0, _⟩ => rfl
      | ⟨1, _⟩ => rfl),
    Cert.Keepdims.column_cast_apply, Cert.RowOps.sum_over_columns_apply]
  rfl

theorem lhs_dot_0 (j : S512x1000.Idx) (p : dot_S512x512_S512x1000_S512x1000_1_0_0_1_n_n.contr.Idx) :
    (dot_S512x512_S512x1000_S512x1000_1_0_0_1_n_n.lhsIdx j p 0).val = (j 0).val := by
  unfold DotDims.lhsIdx
  rw [dif_neg (show ¬(0 : Fin S512x512.rank) ∈ dot_S512x512_S512x1000_S512x1000_1_0_0_1_n_n.lhsBatch by decide),
    dif_pos (show (0 : Fin S512x512.rank) ∈ dot_S512x512_S512x1000_S512x1000_1_0_0_1_n_n.lhsNonContracting by decide)]
  rfl

theorem rhs_dot_1 (j : S512x1000.Idx) (p : dot_S512x512_S512x1000_S512x1000_1_0_0_1_n_n.contr.Idx) :
    (dot_S512x512_S512x1000_S512x1000_1_0_0_1_n_n.rhsIdx j p 1).val = (j 1).val := by
  unfold DotDims.rhsIdx
  rw [dif_neg (show ¬(1 : Fin S512x1000.rank) ∈ dot_S512x512_S512x1000_S512x1000_1_0_0_1_n_n.rhsBatch by decide),
    dif_pos (show (1 : Fin S512x1000.rank) ∈ dot_S512x512_S512x1000_S512x1000_1_0_0_1_n_n.rhsNonContracting by decide)]
  rfl

/-- ⟨x r, y q⟩: the product of x with the transposed y, both narrowed to bf16, accumulated into zeros. -/
theorem dot_apply (x : FVec Ideal S512x512 .f32) (y : FVec Ideal S1000x512 .f32) (hbf : FTy.bits .bf16 < FTy.bits .f32)
    (ht : S1000x512.Transposes [1, 0] S512x1000) (r : Fin 512) (q : Fin 1000) :
    matmul dot_S512x512_S512x1000_S512x1000_1_0_0_1_n_n none (truncf .bf16 x hbf)
        (transpose S512x1000 [1, 0] (truncf .bf16 y hbf) ht) (constant S512x1000 .f32 0x00000000#32) (ix2 r q)
      = ∑ d : Fin 512, x (ix2 r d) * y (ix2 q d) := by
  simp only [matmul]
  rw [Ideal.matmul_constant_zero_apply,
    ← Equiv.sum_comp (ValueIdx.contrEquiv1 dot_S512x512_S512x1000_S512x1000_1_0_0_1_n_n 512 rfl rfl).symm]
  refine Finset.sum_congr rfl fun k _ => ?_
  have hk := ValueIdx.contrEquiv1_symm_val dot_S512x512_S512x1000_S512x1000_1_0_0_1_n_n 512 rfl rfl k
  have el : dot_S512x512_S512x1000_S512x1000_1_0_0_1_n_n.lhsIdx (ix2 r q)
      ((ValueIdx.contrEquiv1 dot_S512x512_S512x1000_S512x1000_1_0_0_1_n_n 512 rfl rfl).symm k) = ix2 r k :=
    funext fun a => Fin.ext (by
      match a with
      | ⟨0, _⟩ => exact lhs_dot_0 _ _
      | ⟨1, _⟩ => exact (dot_S512x512_S512x1000_S512x1000_1_0_0_1_n_n.lhsIdx_val_of_single rfl _ _).trans hk)
  have er : dot_S512x512_S512x1000_S512x1000_1_0_0_1_n_n.rhsIdx (ix2 r q)
      ((ValueIdx.contrEquiv1 dot_S512x512_S512x1000_S512x1000_1_0_0_1_n_n 512 rfl rfl).symm k) = ix2 k q :=
    funext fun a => Fin.ext (by
      match a with
      | ⟨0, _⟩ => exact (dot_S512x512_S512x1000_S512x1000_1_0_0_1_n_n.rhsIdx_val_of_single rfl _ _).trans hk
      | ⟨1, _⟩ => exact rhs_dot_1 _ _)
  rw [el, er, transpose_apply [1, 0] _ ht (ix2 k q) (ix2 q k) (fun b => match b with
      | ⟨0, _⟩ => rfl
      | ⟨1, _⟩ => rfl)]
  rfl

/-- The mask at (r, q): the label of row r against the class number k·1000 + q of column q. -/
theorem mask_apply (k : ℕ) (l : IVec S512x1 32) (hb : S512x1.Broadcasts S512x1000) (hi : S512x1000.Iotas .tc 32 [1])
    (r : Fin 512) (q : Fin 1000) :
    cmpi .eq (broadcastTo S512x1000 l hb)
        (addi (iota .tc S512x1000 32 [1] hi) (broadcast S512x1000 (Scalar.muli (BitVec.ofNat 32 k) 1000#32))) (ix2 r q)
      = IntOp.cmpi .eq (l (ix2 r (0 : Fin 1))) (BitVec.ofNat 32 (k * 1000 + q.val)) := by
  show IntOp.cmpi .eq (broadcastTo S512x1000 l hb (ix2 r q))
      (IntOp.addi (iota .tc S512x1000 32 [1] hi (ix2 r q)) (Scalar.muli (BitVec.ofNat 32 k) 1000#32)) = _
  rw [Cert.Keepdims.column_repeat_apply, iota_single_apply]
  congr 1
  show BitVec.ofNat 32 q.val + BitVec.ofNat 32 k * BitVec.ofNat 32 1000 = _
  rw [BitVec.ofNat_add, BitVec.ofNat_mul, BitVec.add_comm]

/-- The clamped, masked entry (r, q) of class tile `k`, from the tile's blocks. -/
def tileEntry (k : ℕ) (x : S512x512.Idx → EReal) (y : S1000x512.Idx → EReal) (l : S512x1.Idx → BitVec 32)
    (r : Fin 512) (q : Fin 1000) : EReal :=
  min hi (max lo (if l (ix2 r (0 : Fin 1)) = BitVec.ofNat 32 (k * 1000 + q.val) then
    ((∑ d : Fin 512, x (ix2 r d) * x (ix2 r d)) + ∑ d : Fin 512, y (ix2 q d) * y (ix2 q d))
      - two * ∑ d : Fin 512, x (ix2 r d) * y (ix2 q d) else 0))

/-- The body's partial row sums at row `r`: the tile's clamped, masked entries summed over its 1000 columns. -/
theorem pay3_apply (i : grid0.Coords) (x0 : Vec Ideal S512x512 .f32) (x1 : Vec Ideal S1000x512 .f32)
    (x2 : Vec Ideal S512x1 .i32) (r : Fin 512) (z : Fin 1) :
    k0_pay3 (F := Ideal) i x0 x1 x2 (ix2 r z) = ∑ q : Fin 1000, tileEntry (i 1).val x0 x1 x2 r q := by
  obtain rfl : z = 0 := Subsingleton.elim _ _
  unfold k0_pay3
  dsimp only
  refine (Cert.Keepdims.column_cast_apply _ _ r).trans ?_
  refine (Cert.RowOps.sum_over_columns_apply _ _ _ _ r).trans ?_
  refine Finset.sum_congr rfl fun q _ => ?_
  simp only [shapeCast_self]
  simp only [minimumf_apply, maximumf_apply, select_apply, subf_apply, addf_apply, mulf_apply, broadcast_apply]
  rw [sqnorm_rows_apply, sqnorm_cols_apply, dot_apply, mask_apply, select_mask]
  simp only [Ideal.ofBits_def, Ideal.ofBits_zero_f32]
  rfl

end Cert.KernelIdeal.Pay

end
-- ==== Proof.Blocks.lean ====
/-
  The blocks a grid point reads, in terms of the program's inputs.

  Point t is class tile t % 10 of row tile t / 10.  Its sample block is rows (t/10)·512 + r of the sample matrix (the
  input with its leading axes merged, written by the host before the region), its centre block rows (t%10)·1000 + q of
  the centres, and its label block the labels of the same samples (the label vector kept as a column).  With these,
  the partial row sums the body computes at point t are, at row r, the loss's clamped entries of sample
  (t/10)·512 + r summed over the classes (t%10)·1000 + q of the tile.
-/
import proofs.«139067_j19481971655234_1_alg».proof.Proof.AccChain
import proofs.«139067_j19481971655234_1_alg».proof.Proof.Payload
import Idealize.ShloMosaic.Lib.StableHlo.Run

set_option maxRecDepth 16384

noncomputable section

open scoped BigOperators

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx Cert.CenterLoss Cert.KernelIdeal.Pay

variable (m : (ℓ : Loc nD τ sig) → Buf (Elt Ideal) ℓ)

/-- The loss's three arguments, read off the kernel program's inputs on core `c`. -/
abbrev Xk (c : Dev nD) : Fin 4096 → Fin 512 → EReal :=
  samples (m ((c : Thread nD τ).loc main_arg0)) shapeCasts_S16x256x512_S4096x512
abbrev Ck (c : Dev nD) : Fin 10000 → Fin 512 → EReal := centres (m ((c : Thread nD τ).loc main_arg2))
abbrev Lk (c : Dev nD) : Fin 4096 → BitVec 32 := labelsOf (m ((c : Thread nD τ).loc main_arg1)) shapeCasts_S16x256_S4096

/-- The windows' block indices and the class-tile coordinate at every one of the 80 points (a finite check). -/
theorem idx_facts : ∀ t : Fin cfg0.N, win0_0.index t (0 : Fin 2) = t.val / 10 ∧ win0_0.index t (1 : Fin 2) = 0
    ∧ win0_1.index t (0 : Fin 2) = t.val % 10 ∧ win0_1.index t (1 : Fin 2) = 0
    ∧ win0_2.index t (0 : Fin 2) = t.val / 10 ∧ win0_2.index t (1 : Fin 2) = 0
    ∧ win0_3.index t (0 : Fin 2) = t.val / 10 ∧ win0_3.index t (1 : Fin 2) = 0
    ∧ ((grid0.coords t) 1).val = t.val % 10 :=
  (by decide +kernel : ∀ t : Fin grid0.N, _)

/-- The sample matrix as the region finds it: the host's merge of the input's leading axes. -/
theorem V_main_v0 (c : Dev nD) :
    (V m c main_v0 : S4096x512.Idx → EReal)
      = shapeCast S4096x512 (m ((c : Thread nD τ).loc main_arg0)) shapeCasts_S16x256x512_S4096x512 := by
  show StableHlo.after hostOps0 (fun b => m (c, b)) (Proc.devRef .tc main_v0) = _
  after_results
  rfl

/-- The label column as the region finds it: the labels merged into one vector, kept as a column. -/
theorem V_main_v2 (c : Dev nD) :
    (V m c main_v2 : S4096x1.Idx → BitVec 32)
      = shapeCast S4096x1 (shapeCast S4096 (m ((c : Thread nD τ).loc main_arg1)) shapeCasts_S16x256_S4096)
          shapeCasts_S4096_S4096x1 := by
  show StableHlo.after hostOps0 (fun b => m (c, b)) (Proc.devRef .tc main_v2) = _
  after_results
  rfl

theorem row_lt (t : Fin cfg0.N) (r : Fin 512) : t.val / 10 * 512 + r.val < 4096 := by
  have hN : t.val < 80 := lt_of_lt_of_eq t.isLt (show cfg0.N = 80 from N_0)
  have := r.isLt
  omega

theorem col_lt (t : Fin cfg0.N) (q : Fin 1000) : t.val % 10 * 1000 + q.val < 10000 := by
  have := q.isLt
  omega

/-- The sample block of point `t`: rows (t/10)·512 + r of the sample matrix. -/
theorem iblk0_apply (c : Dev nD) (t : Fin cfg0.N) (r : Fin 512) (d : Fin 512) :
    (iblk m c 0 t : S512x512.Idx → EReal) (ix2 r d) = Xk m c ⟨t.val / 10 * 512 + r.val, row_lt t r⟩ d := by
  obtain ⟨e0, e1, -⟩ := idx_facts t
  unfold iblk
  rw [View.read_apply]
  show V m c main_v0 _ = shapeCast S4096x512 (m ((c : Thread nD τ).loc main_arg0)) _ _
  rw [V_main_v0]
  congr 1
  funext a
  apply Fin.ext
  match a with
  | ⟨0, _⟩ => show win0_0.index t (0 : Fin 2) * 512 + 1 * r.val = t.val / 10 * 512 + r.val; omega
  | ⟨1, _⟩ => show win0_0.index t (1 : Fin 2) * 512 + 1 * d.val = d.val; omega

/-- The centre block of point `t`: rows (t%10)·1000 + q of the centres. -/
theorem iblk1_apply (c : Dev nD) (t : Fin cfg0.N) (q : Fin 1000) (d : Fin 512) :
    (iblk m c 1 t : S1000x512.Idx → EReal) (ix2 q d) = Ck m c ⟨t.val % 10 * 1000 + q.val, col_lt t q⟩ d := by
  obtain ⟨-, -, e2, e3, -⟩ := idx_facts t
  unfold iblk
  rw [View.read_apply]
  show V m c main_arg2 _ = m ((c : Thread nD τ).loc main_arg2) _
  rw [V_main_arg2]
  congr 1
  funext a
  apply Fin.ext
  match a with
  | ⟨0, _⟩ => show win0_1.index t (0 : Fin 2) * 1000 + 1 * q.val = t.val % 10 * 1000 + q.val; omega
  | ⟨1, _⟩ => show win0_1.index t (1 : Fin 2) * 512 + 1 * d.val = d.val; omega

/-- The label block of point `t`: the labels of samples (t/10)·512 + r. -/
theorem iblk2_apply (c : Dev nD) (t : Fin cfg0.N) (r : Fin 512) :
    (iblk m c 2 t : S512x1.Idx → BitVec 32) (ix2 r (0 : Fin 1)) = Lk m c ⟨t.val / 10 * 512 + r.val, row_lt t r⟩ := by
  obtain ⟨-, -, -, -, e4, e5, -⟩ := idx_facts t
  unfold iblk
  rw [View.read_apply]
  show V m c main_v2 _ = shapeCast S4096 (m ((c : Thread nD τ).loc main_arg1)) _ _
  rw [V_main_v2, ← Cert.Keepdims.column_cast_apply (shapeCast S4096 (m ((c : Thread nD τ).loc main_arg1)) shapeCasts_S16x256_S4096)
    shapeCasts_S4096_S4096x1 ⟨t.val / 10 * 512 + r.val, row_lt t r⟩]
  congr 1
  funext a
  apply Fin.ext
  match a with
  | ⟨0, _⟩ => show win0_2.index t (0 : Fin 2) * 512 + 1 * r.val = t.val / 10 * 512 + r.val; omega
  | ⟨1, _⟩ => show win0_2.index t (1 : Fin 2) * 1 + 1 * 0 = 0; omega

/-- The partial row sums of point `t` at row `r`: the clamped entries of sample (t/10)·512 + r over the tile's classes. -/
theorem part_apply (c : Dev nD) (t : Fin cfg0.N) (r : Fin 512) (z : Fin 1) :
    part m c t (ix2 r z)
      = ∑ q : Fin 1000, entry (Xk m c) (Ck m c) (Lk m c) ⟨t.val / 10 * 512 + r.val, row_lt t r⟩
          ⟨t.val % 10 * 1000 + q.val, col_lt t q⟩ := by
  unfold part
  rw [pay3_apply]
  refine Finset.sum_congr rfl fun q _ => ?_
  unfold tileEntry entry sqdist
  simp only [iblk0_apply, iblk1_apply, iblk2_apply]
  rw [(idx_facts t).2.2.2.2.2.2.2.2]

end Cert.KernelIdeal.Acc

end
-- ==== Proof.LibSumBlocks.lean ====
/-
  Regrouping a finite sum into consecutive blocks.

  A sum over the N = a * b indices 0, …, N - 1 is the sum, over the a blocks, of the sum over the b offsets inside a
  block: index i * b + j is offset j of block i.  Only commutativity and associativity of the addition are used, so the
  statement holds in any additive commutative monoid (the extended reals included).
-/
import Mathlib.Algebra.BigOperators.Fin
import Mathlib.Logic.Equiv.Fin.Basic

open scoped BigOperators

namespace Cert.SumBlocks

/-- Index `i * b + j` of block `i`, offset `j`, is below `a * b`. -/
theorem block_index_lt {a b : ℕ} (i : Fin a) (j : Fin b) : i.val * b + j.val < a * b := by
  have hi : i.val + 1 ≤ a := i.isLt
  have hj := j.isLt
  have h1 : (i.val + 1) * b ≤ a * b := Nat.mul_le_mul_right b hi
  rw [Nat.succ_mul] at h1
  omega

/-- A sum over `Fin N`, `N = a * b`, regrouped as `a` consecutive blocks of `b` terms. -/
theorem sum_blocks {M : Type*} [AddCommMonoid M] (a b N : ℕ) (hN : N = a * b) (f : Fin N → M) :
    ∑ n : Fin N, f n = ∑ i : Fin a, ∑ j : Fin b, f ⟨i.val * b + j.val, hN ▸ block_index_lt i j⟩ := by
  subst hN
  rw [← Fintype.sum_prod_type', ← (finProdFinEquiv (m := a) (n := b)).sum_comp]
  refine Finset.sum_congr rfl fun p _ => congrArg f (Fin.ext ?_)
  show p.2.val + b * p.1.val = p.1.val * b + p.2.val
  rw [Nat.mul_comm, Nat.add_comm]

end Cert.SumBlocks
-- ==== Proof.AccSum.lean ====
/-
  The accumulator on the extended reals: a running sum, restarted at each row tile.

  On the extended reals the body's accumulating payload is the entrywise sum `old + new`, and the zero block is 0.
  So, with P n the partial row sums of point n, the accumulator after point n holds, entry by entry,
      P (n − n % 10) + P (n − n % 10 + 1) + … + P n,
  the partial sums of the class tiles of n's row tile up to n's own: at a row tile's first class tile the sum restarts
  from 0 + P n, and otherwise one more term is added on the right.  After the last class tile of a row tile (n % 10 = 9)
  this is the sum over all ten class tiles, which, at row r, is the loss of sample (n/10)·512 + r: its clamped entries
  summed over the ten blocks of 1000 classes, that is over all 10000 classes.
-/
import proofs.«139067_j19481971655234_1_alg».proof.Proof.Blocks
import proofs.«139067_j19481971655234_1_alg».proof.Proof.LibSumBlocks

set_option maxRecDepth 16384

noncomputable section

open scoped BigOperators

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx Cert.CenterLoss Cert.KernelIdeal.Pay

variable (m : (ℓ : Loc nD τ sig) → Buf (Elt Ideal) ℓ)

/-- The accumulating payload, entry by entry: old + new. -/
theorem pay1_apply (v38 v39 : Vec Ideal S512x1 .f32) (j : S512x1.Idx) :
    k0_pay1 (F := Ideal) v38 v39 j = v39 j + v38 j := by
  unfold k0_pay1
  rw [shapeCast_self]
  rfl

/-- The zero block, entry by entry: 0. -/
theorem pay2_apply (j : S512x1.Idx) : k0_pay2 (F := Ideal) j = 0 := by
  unfold k0_pay2
  rw [shapeCast_self]
  exact Ideal.ofBits_zero_f32

/-- The partial row sums of point `n`, for any natural number `n` (0 past the grid). -/
def partN (c : Dev nD) (n : ℕ) : S512x1.Idx → EReal :=
  if h : n < cfg0.N then part m c ⟨n, h⟩ else fun _ => 0

theorem partN_of_lt (c : Dev nD) (n : ℕ) (h : n < cfg0.N) : partN m c n = part m c ⟨n, h⟩ := dif_pos h

/-- The accumulator after point `n`: the partial sums of n's row tile, from its first class tile to n's. -/
theorem acc_apply (c : Dev nD) (j : S512x1.Idx) : ∀ (n : ℕ) (h : n < cfg0.N),
    acc m c n h j = ∑ k ∈ Finset.range (n % 10 + 1), partN m c (n - n % 10 + k) j
  | 0, h => by
    rw [acc_zero, pay1_apply, pay2_apply, zero_add]
    show _ = ∑ k ∈ Finset.range 1, partN m c (0 + k) j
    rw [Finset.sum_range_one]
    show _ = partN m c 0 j
    rw [partN_of_lt m c 0 h]
  | n + 1, h => by
    rw [acc_succ]
    by_cases h0 : (n + 1) % 10 = 0
    · rw [if_pos h0, pay1_apply, pay2_apply, zero_add, h0]
      show _ = ∑ k ∈ Finset.range 1, partN m c (n + 1 - 0 + k) j
      rw [Finset.sum_range_one]
      show _ = partN m c (n + 1) j
      rw [partN_of_lt m c (n + 1) h]
    · rw [if_neg h0, pay1_apply, acc_apply c j n (Nat.lt_of_succ_lt h)]
      have e1 : (n + 1) % 10 = n % 10 + 1 := by omega
      have e2 : n + 1 - (n % 10 + 1) = n - n % 10 := by omega
      rw [e1, e2, Finset.sum_range_succ (fun k => partN m c (n - n % 10 + k) j) (n % 10 + 1)]
      have e3 : n - n % 10 + (n % 10 + 1) = n + 1 := by omega
      rw [e3, partN_of_lt m c (n + 1) h]

theorem tile_lt (t : Fin cfg0.N) (h9 : t.val % 10 = 9) (k : Fin 10) : t.val - 9 + k.val < cfg0.N := by
  have h80 : cfg0.N = 80 := N_0
  have ht := t.isLt
  have hk := k.isLt
  omega

/-- After the last class tile of a row tile the accumulator holds, at row `r`, the loss of sample (t/10)·512 + r. -/
theorem acc_last_apply (c : Dev nD) (t : Fin cfg0.N) (h9 : t.val % 10 = 9) (r : Fin 512) (z : Fin 1) :
    acc m c t.val t.isLt (ix2 r z) = rowLoss (Xk m c) (Ck m c) (Lk m c) ⟨t.val / 10 * 512 + r.val, row_lt t r⟩ := by
  have hN : t.val < 80 := lt_of_lt_of_eq t.isLt (show cfg0.N = 80 from N_0)
  rw [acc_apply, h9, show (9 : ℕ) + 1 = 10 from rfl, Finset.sum_range]
  unfold rowLoss
  rw [Cert.SumBlocks.sum_blocks 10 1000 10000 rfl]
  refine Finset.sum_congr rfl fun k _ => ?_
  rw [partN_of_lt m c (t.val - 9 + k.val) (tile_lt t h9 k), part_apply]
  have hk := k.isLt
  have ed : (t.val - 9 + k.val) / 10 = t.val / 10 := by omega
  have em : (t.val - 9 + k.val) % 10 = k.val := by omega
  refine Finset.sum_congr rfl fun q _ => ?_
  congr 1
  · exact Fin.ext (by show (t.val - 9 + k.val) / 10 * 512 + r.val = t.val / 10 * 512 + r.val; rw [ed])
  · exact Fin.ext (by show (t.val - 9 + k.val) % 10 * 1000 + q.val = k.val * 1000 + q.val; rw [em])

end Cert.KernelIdeal.Acc

end
-- ==== Proof.KernelRun.lean ====
/-
  The kernel program computes the loss.

  The output array is the column of the samples' losses: row tile i is written back once, after its last class tile
  (point 10·i + 9), when the accumulator holds at row r the loss of sample i·512 + r; the eight written-back blocks tile
  the 4096 rows, so the whole array is that column.  The host then sums the column from 0 and multiplies by 1: the sum
  over the [4096, 1] array is the sum over the 4096 samples, so the result is the loss.
-/
import proofs.«139067_j19481971655234_1_alg».proof.Proof.AccSum

set_option maxRecDepth 16384

noncomputable section

open scoped BigOperators

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx Cert.CenterLoss Cert.KernelIdeal.Pay

variable (m : (ℓ : Loc nD τ sig) → Buf (Elt Ideal) ℓ) (ρ : Dev nD → PrngReg)

/-- The column of the samples' losses, as contents of the output array. -/
def lossCol (c : Dev nD) : Buf (Elt Ideal) ((c : Thread nD τ).loc main_v3) :=
  fun (i : S4096x1.Idx) => rowLoss (Xk m c) (Ck m c) (Lk m c) (i 0)

/-- The accumulator after a row tile's last class tile, at any entry of the block. -/
theorem acc_last_entry (c : Dev nD) (t : Fin cfg0.N) (h9 : t.val % 10 = 9) (j : S512x1.Idx) :
    acc m c t.val t.isLt j = rowLoss (Xk m c) (Ck m c) (Lk m c) ⟨t.val / 10 * 512 + (j 0).val, row_lt t (j 0)⟩ := by
  rw [eq_ix2 j]
  exact acc_last_apply m c t h9 (j 0) (j 1)

/-- What a write-back writes: the block of the loss column at the point's row tile. -/
theorem flushed_eq (c : Dev nD) (t : Fin cfg0.N) (hf : (cfg0.win 3).flush t = true) :
    (dats m 0 c).flushed 3 t = ((cfg0.win 3).blk t).view.read (Elt Ideal) (lossCol m c) := by
  have h9 : t.val % 10 = 9 := (flush0_3 t).mp hf
  obtain ⟨-, -, -, -, -, -, e6, e7, -⟩ := idx_facts t
  show (cfg0.win 3).cut (grid0.coords t) ((dats m 0 c).after 3 t) = _
  rw [after0_3, outsAt_eq]
  funext j
  show acc m c t.val t.isLt j = lossCol m c (((cfg0.win 3).blk t).view.emb j)
  rw [acc_last_entry m c t h9 j]
  show rowLoss (Xk m c) (Ck m c) (Lk m c) _
    = rowLoss (Xk m c) (Ck m c) (Lk m c) ((((cfg0.win 3).blk t).view.emb j) 0)
  refine congrArg (rowLoss (Xk m c) (Ck m c) (Lk m c)) (Fin.ext ?_)
  show t.val / 10 * 512 + (j 0).val = win0_3.index t (0 : Fin 2) * 512 + 1 * (j 0).val
  omega

/-- An index of the output array is in point `t`'s block iff each coordinate is in the block's range on its axis. -/
theorem mem_blk (t : Fin cfg0.N) (i : S4096x1.Idx) :
    i ∈ ((cfg0.win 3).blk t).view.set ↔ ∀ a : Fin 2, win0_3.index t a * S512x1.size a ≤ (i a).val
      ∧ (i a).val < win0_3.index t a * S512x1.size a + S512x1.size a := by
  show i ∈ ((View.whole main_v3).slice (win0_3.rect t)).set ↔ _
  rw [View.set_slice_whole, Rect.mem_set_unit]
  exact Iff.rfl

/-- Every row of the output array lies in the block written back after its row tile's last class tile. -/
theorem cover (c : Dev nD) (i : ((cfg0.win 3).arr.view.loc (c.tc : Thread nD τ)).2.ty.Idx) :
    ∃ t : Fin cfg0.N, (cfg0.win 3).flush t = true ∧ i ∈ ((cfg0.win 3).blk t).view.set := by
  have h0 : ((i : S4096x1.Idx) 0).val < 4096 := ((i : S4096x1.Idx) 0).isLt
  have h1 : ((i : S4096x1.Idx) 1).val < 1 := ((i : S4096x1.Idx) 1).isLt
  have hlt : ((i : S4096x1.Idx) 0).val / 512 * 10 + 9 < cfg0.N := by rw [show cfg0.N = 80 from N_0]; omega
  refine ⟨⟨((i : S4096x1.Idx) 0).val / 512 * 10 + 9, hlt⟩, (flush0_3 _).mpr (by
    show (((i : S4096x1.Idx) 0).val / 512 * 10 + 9) % 10 = 9; omega), ?_⟩
  rw [mem_blk]
  obtain ⟨-, -, -, -, -, -, e6, e7, -⟩ := idx_facts ⟨((i : S4096x1.Idx) 0).val / 512 * 10 + 9, hlt⟩
  have e6' : win0_3.index ⟨((i : S4096x1.Idx) 0).val / 512 * 10 + 9, hlt⟩ (0 : Fin 2)
      = (((i : S4096x1.Idx) 0).val / 512 * 10 + 9) / 10 := e6
  intro a
  match a with
  | ⟨0, _⟩ =>
    show win0_3.index _ (0 : Fin 2) * 512 ≤ ((i : S4096x1.Idx) 0).val
      ∧ ((i : S4096x1.Idx) 0).val < win0_3.index _ (0 : Fin 2) * 512 + 512
    rw [e6']; omega
  | ⟨1, _⟩ =>
    show win0_3.index _ (1 : Fin 2) * 1 ≤ ((i : S4096x1.Idx) 1).val
      ∧ ((i : S4096x1.Idx) 1).val < win0_3.index _ (1 : Fin 2) * 1 + 1
    rw [e7]; omega

/-- The output array after the run: the column of the samples' losses. -/
theorem final (c : Dev nD) : (dats m 0 c).arrAt 3 cfg0.N = lossCol m c :=
  (dats m 0 c).arrAt_eq_of_cover 3 (lossCol m c) (flushed_eq m c) (cover c)

/-- The host's sum of a [4096, 1] column over both axes, from 0: the sum of its 4096 entries. -/
theorem host_total (y : S4096x1.Idx → EReal) (i : S_.Idx) :
    Host.reduceAdd (F := Ideal) y (constant S_ .f32 0x00000000#32) reducesTo_S4096x1_S_d0_1 h_S_ i
      = ∑ n : Fin 4096, y (ix2 n (0 : Fin 1)) := by
  simp only [Host.reduceAdd, Ideal.hostReduceAdd_def]
  rw [Ideal.hostReduceAdd_total reducesTo_S4096x1_S_d0_1 (fun b => b.elim0)]
  show Ideal.ofBits .f32 0x00000000#32 + _ = _
  rw [Ideal.ofBits_zero_f32, zero_add, sum_idx2]
  refine Finset.sum_congr rfl fun n _ => ?_
  exact Fin.sum_univ_one _

/-- The host's lines after the region: the column summed from 0, times 1, is the loss. -/
theorem tail_eq (c : Dev nD) :
    Pipeline.afterTail₀ cfgs (dats m) 0 (V0 m) [hostOps1] c main_v5 = fun _ => loss (Xk m c) (Ck m c) (Lk m c) := by
  unfold Pipeline.afterTail₀
  show StableHlo.after hostOps1 _ (Proc.devRef .tc main_v5) = _
  after_results
  have e : Pipeline.withArrays (cfgs 0).spec c (V0 m c) (fun w => (dats m 0 c).arrAt w (cfgs 0).N)
      (Proc.devRef .tc main_v3) = lossCol m c :=
    (Pipeline.withArrays_arr spec0 launch0.win.arr_inj c _ _ 3).trans (final m c)
  rw [e]
  funext i
  show Ideal.ofBits .f32 0x3F800000#32 * Host.reduceAdd (F := Ideal) (lossCol m c) (constant S_ .f32 0x00000000#32)
    reducesTo_S4096x1_S_d0_1 h_S_ i = _
  rw [host_total]
  rfl

/-- The run, read: the result at the loss of the inputs, the inputs unchanged. -/
theorem run : θ_run defs (onTc (τ := τ) (main (F := Ideal))) ⟨m, fun _ => 0, ρ⟩ fun r => ∀ c : Dev nD,
      r.2.mem ((c.tc : Thread nD τ).loc main_v5) = (fun _ => loss (Xk m c) (Ck m c) (Lk m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.KernelIdeal.Acc

end
-- ==== Proof.RefSide.lean ====
/-
  The reference computes the loss.

  Read index by index, the reference forms for every sample n and class c the entry
      min hi (max lo ((‖X n‖² + ‖C c‖² − 2 ⟨X n, C c⟩) · [label n = c]))
  (each squared norm and the inner product a sum over the 512 features started from 0, the mask the comparison's
  0/1 value), sums the entries over the 10000 classes, splits the 4096 samples back into 16 × 256, sums over both
  axes, and multiplies by 1.  The product with the 0/1 mask is the conditional, a sum started from 0 is the sum, and
  the double sum over 16 × 256 is the sum over the 4096 samples in row-major order: so the result is the loss.
-/
import proofs.«139067_j19481971655234_1_alg».proof.Defs
import proofs.«139067_j19481971655234_1_alg».proof.Proof.Gen.ReferenceIdeal.Read
import proofs.«139067_j19481971655234_1_alg».proof.Proof.Spec
import proofs.«139067_j19481971655234_1_alg».proof.Proof.LibSumBlocks

noncomputable section

open scoped BigOperators

namespace Cert.ReferenceIdeal.RefValue

open Cert.ReferenceIdeal Cert.ReferenceIdeal.Gen Cert.ReferenceIdeal.Read Idealize.ShloMosaic Idealize.ShloMosaic.ValueIdx
open Cert.CenterLoss

variable (x0 : (⟨S16x256x512, .f32⟩ : BufTy).Contents (Elt Ideal)) (x1 : (⟨S16x256, .i32⟩ : BufTy).Contents (Elt Ideal))
  (x2 : (⟨S10000x512, .f32⟩ : BufTy).Contents (Elt Ideal))

/-- The loss's three arguments, read off the reference's inputs. -/
abbrev Xr : Fin 4096 → Fin 512 → EReal := samples x0 shapeCasts_S16x256x512_S4096x512
abbrev Cr : Fin 10000 → Fin 512 → EReal := centres x2
abbrev Lr : Fin 4096 → BitVec 32 := labelsOf x1 shapeCasts_S16x256_S4096

/-- ‖X n‖², repeated along the classes. -/
theorem xnorm_apply (n : Fin 4096) (c : Fin 10000) :
    val_main_v8 (F := Ideal) x0 (ix2 n c) = ∑ d : Fin 512, Xr x0 n d * Xr x0 n d := by
  rw [val_main_v8_apply, val_main_v4_apply, val_main_v3_apply]
  show Ideal.ofBits .f32 0x00000000#32 + _ = _
  rw [Ideal.ofBits_zero_f32, zero_add]
  refine Finset.sum_congr rfl fun d _ => ?_
  have e : idx_main_v3 (idx_main_v4 (idx_main_v8 (ix2 n c))) d = ix2 n d :=
    funext fun a => Fin.ext (by match a with | ⟨0, _⟩ => rfl | ⟨1, _⟩ => rfl)
  rw [e]
  rfl

/-- ‖C c‖², repeated along the samples. -/
theorem cnorm_apply (n : Fin 4096) (c : Fin 10000) :
    val_main_v9 (F := Ideal) x2 (ix2 n c) = ∑ d : Fin 512, Cr x2 c d * Cr x2 c d := by
  rw [val_main_v9_apply, val_main_v7_apply, val_main_v6_apply]
  show Ideal.ofBits .f32 0x00000000#32 + _ = _
  rw [Ideal.ofBits_zero_f32, zero_add]
  refine Finset.sum_congr rfl fun d _ => ?_
  have e : idx_main_v6 (idx_main_v7 (idx_main_v9 (ix2 n c))) d = ix2 c d :=
    funext fun a => Fin.ext (by match a with | ⟨0, _⟩ => rfl | ⟨1, _⟩ => rfl)
  rw [e]
  rfl

/-- ⟨X n, C c⟩: the matrix product with the transposed centres. -/
theorem dot_apply (n : Fin 4096) (c : Fin 10000) :
    val_main_v12 (F := Ideal) x0 x2 (ix2 n c) = ∑ d : Fin 512, Xr x0 n d * Cr x2 c d := by
  rw [val_main_v12_apply]
  refine Finset.sum_congr rfl fun d _ => ?_
  rw [val_main_v11_apply]
  have el : lidx_main_v12 (ix2 n c) d = ix2 n d :=
    funext fun a => Fin.ext (by match a with | ⟨0, _⟩ => rfl | ⟨1, _⟩ => rfl)
  have er : idx_main_v11 (ridx_main_v12 (ix2 n c) d) = ix2 c d :=
    funext fun a => Fin.ext (by match a with | ⟨0, _⟩ => rfl | ⟨1, _⟩ => rfl)
  rw [el, er]
  rfl

/-- The mask: the 0/1 value of "sample n's label is c". -/
theorem mask_apply (n : Fin 4096) (c : Fin 10000) :
    val_main_v22 (F := Ideal) x1 (ix2 n c)
      = (((IntOp.cmpi .eq (Lr x1 n) (BitVec.ofNat 32 c.val)).toNat : ℝ) : EReal) := by
  rw [val_main_v22_apply, val_main_v21_apply, val_main_v19_apply, val_main_v16_apply, val_main_v20_apply,
    val_main_v18_apply, val_main_v17_apply]
  have e1 : idx_main_v16 (idx_main_v19 (ix2 n c)) = ix1 n :=
    funext fun a => Fin.ext (by match a with | ⟨0, _⟩ => rfl)
  rw [e1]
  rfl

/-- The clamped, masked entry (n, c). -/
theorem entry_apply (n : Fin 4096) (c : Fin 10000) :
    val_main_v24 (F := Ideal) x0 x1 x2 (ix2 n c) = entry (Xr x0) (Cr x2) (Lr x1) n c := by
  rw [val_main_v24_apply, val_main_call0_v2_apply, val_main_v23_apply, val_main_v15_apply, val_main_v10_apply,
    val_main_v14_apply, xnorm_apply, cnorm_apply, dot_apply, mask_apply, val_main_call0_v4_apply,
    val_main_call0_v3_apply, val_main_cst_3_apply, val_main_call0_v1_apply, val_main_call0_v0_apply,
    val_main_cst_2_apply, val_main_v13_apply, val_main_cst_1_apply]
  simp only [Ideal.minimumf_def, Ideal.maximumf_def, Ideal.mulf_def, Ideal.subf_def, Ideal.addf_def, Ideal.ofBits_def]
  rw [mul_mask]
  rfl

/-- A sample's loss: the entries summed over the classes, from 0. -/
theorem row_apply (n : Fin 4096) :
    val_main_v25 (F := Ideal) x0 x1 x2 (ix1 n) = rowLoss (Xr x0) (Cr x2) (Lr x1) n := by
  rw [val_main_v25_apply]
  show Ideal.ofBits .f32 0x00000000#32 + _ = _
  rw [Ideal.ofBits_zero_f32, zero_add]
  refine Finset.sum_congr rfl fun c _ => ?_
  have e : idx_main_v25 (ix1 n) c = ix2 n c :=
    funext fun a => Fin.ext (by match a with | ⟨0, _⟩ => rfl | ⟨1, _⟩ => rfl)
  rw [e, entry_apply]

/-- The reference's result is the loss of its inputs. -/
theorem result_apply (i : S_.Idx) :
    val_main_v28 (F := Ideal) x0 x1 x2 i = loss (Xr x0) (Cr x2) (Lr x1) := by
  rw [val_main_v28_apply, val_main_v27_apply]
  show Ideal.ofBits .f32 0x3F800000#32 * (Ideal.ofBits .f32 0x00000000#32 + _) = _
  rw [Ideal.ofBits_zero_f32, zero_add, sum_idx2]
  unfold loss
  rw [Cert.SumBlocks.sum_blocks 16 256 4096 rfl]
  refine congrArg (one * ·) (Finset.sum_congr rfl fun b _ => Finset.sum_congr rfl fun p _ => ?_)
  rw [val_main_v26_apply]
  have e : idx_main_v26 (ix2 b p) = ix1 ⟨b.val * 256 + p.val, Cert.SumBlocks.block_index_lt b p⟩ :=
    funext fun a => Fin.ext (by match a with | ⟨0, _⟩ => rfl)
  rw [e, row_apply]

end Cert.ReferenceIdeal.RefValue

end
-- ==== Proof.lean ====
/-
  The centre loss computed two ways, equal on the extended reals.

  Both programs take 4096 samples of 512 features (given as [16, 256, 512]), their labels ([16, 256]) and 10000 class
  centres of 512 features, and return
      1 · Σ_n Σ_c  clamp_[lo, hi] ( (‖x_n‖² + ‖c‖² − 2 ⟨x_n, c⟩) where c is n's label, 0 elsewhere ).
  The reference forms the whole 4096 × 10000 matrix, masks it by a product with the comparison's 0/1 value, clamps it
  and sums it, by rows and then over the samples.  The kernel walks the matrix tile by tile (8 row tiles of 512 samples,
  10 class tiles of 1000 classes), masks by selection, clamps, sums each tile's rows, accumulates the ten class tiles of a
  row tile in a scratch block, writes the row tile's sums back after its last class tile, and the host sums the
  resulting column.  On the extended reals a product with 0 or 1 is the selection, a change of float format is the
  identity, the matrix unit's product into zeros is the plain inner product, and sums may be regrouped freely, so both
  results are the same sum (no finiteness of the inputs is needed for this).  The frames are the generated ones; the
  idealization rewrote nothing.
-/
import proofs.«139067_j19481971655234_1_alg».proof.Defs
import proofs.«139067_j19481971655234_1_alg».proof.Proof.Gen.Kernel
import proofs.«139067_j19481971655234_1_alg».proof.Proof.Gen.Kernel.Skeleton
import proofs.«139067_j19481971655234_1_alg».proof.Proof.Gen.Kernel.Launch
import proofs.«139067_j19481971655234_1_alg».proof.Proof.Gen.Kernel.Points
import proofs.«139067_j19481971655234_1_alg».proof.Proof.Gen.Kernel.Frame
import proofs.«139067_j19481971655234_1_alg».proof.Proof.Gen.KernelIdeal
import proofs.«139067_j19481971655234_1_alg».proof.Proof.Gen.KernelIdeal.Skeleton
import proofs.«139067_j19481971655234_1_alg».proof.Proof.Gen.KernelIdeal.Launch
import proofs.«139067_j19481971655234_1_alg».proof.Proof.Gen.KernelIdeal.Points
import proofs.«139067_j19481971655234_1_alg».proof.Proof.Gen.KernelIdeal.Frame
import proofs.«139067_j19481971655234_1_alg».proof.Proof.Gen.ReferenceIdeal
import proofs.«139067_j19481971655234_1_alg».proof.Proof.Gen.ReferenceIdeal.Run
import proofs.«139067_j19481971655234_1_alg».proof.Proof.Gen.ReferenceIdeal.Read
import proofs.«139067_j19481971655234_1_alg».proof.Proof.Gen.Pre_finite_inputs
import proofs.«139067_j19481971655234_1_alg».proof.Proof.KernelRun
import proofs.«139067_j19481971655234_1_alg».proof.Proof.RefSide
import Idealize.ShloMosaic.Adequacy
import Idealize.ShloMosaic.Init

noncomputable section

namespace Cert.Proof

open Idealize.ShloMosaic Idealize.SL.Sem Cert.CenterLoss

/-- The word-level kernel runs and leaves its inputs unchanged: the generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference runs and leaves its inputs unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From inputs that agree, the kernel's result is the loss of its inputs and the reference's the loss of its own:
    one value. -/
theorem algebraic : Cert.algebraic_KernelIdeal_ReferenceIdeal := by
  intro m ρ m' ρ' _ hagree
  refine ⟨fun c => fun _ => loss (Cert.KernelIdeal.Acc.Xk m c) (Cert.KernelIdeal.Acc.Ck m c) (Cert.KernelIdeal.Acc.Lk m c),
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq]
  funext i
  rw [Cert.ReferenceIdeal.RefValue.result_apply, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
